-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S2x1 : Shape := ⟨2, ![2, 1]⟩
abbrev S1 : Shape := ⟨1, ![1]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x128 : S_.BroadcastsInDim S165x128 (![] : Fin 0 → Fin S165x128.rank)
  reducesTo_S165x128_S_d0_1 : S165x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_v33 : IVec S_ 1) : IVec S_ 1 :=
  let main_c_12 : IVec S_ 32 := constantI S_ 32 0#32
  let main_v34 : IVec S2x1600000 32 := broadcastInDim S2x1600000 ![] bcast_S_S2x1600000 main_c_12
  let main_v35 : IVec S2x1600000 1 := cmpi .sge main_arg1 main_v34
  let main_c_13 : IVec S_ 1 := constantI S_ 1 1#1
  let main_v36 : IVec S_ 1 := (fun x v => Host.reduce IntOp.andi x v reducesTo_S2x1600000_S_d0_1 h_S_) main_v35 main_c_13
  let main_v37 : IVec S_ 1 := andi main_v33 main_v36
  main_v37

def fn_part1 {F : FTy → Type} [FloatOps F] (main_arg1 : IVec S2x1600000 32) (main_arg5 : FVec F S2 .f32) (main_arg6 : FVec F S2x1 .f32) (main_arg7 : FVec F S1 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x1 .f32 := Host.absf main_arg6
  let main_cst_8 : FVec F S_ .f32 := constant S_ .f32 0x7F800000#32
  let main_v25 : FVec F S2x1 .f32 := broadcastInDim S2x1 ![] bcast_S_S2x1 main_cst_8
  let main_v26 : IVec S2x1 1 := cmpf .olt main_v24 main_v25
  let main_c_9 : IVec S_ 1 := constantI S_ 1 1#1
  let main_v27 : IVec S_ 1 := (fun x v => Host.reduce IntOp.andi x v reducesTo_S2x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S100000x165 .f32) (main_arg1 : IVec S2x1600000 32) (main_arg2 : FVec F S165x128 .f32) (main_arg3 : FVec F S128 .f32) (main_arg4 : FVec F S128x2 .f32) (main_arg5 : FVec F S2 .f32) (main_arg6 : FVec F S2x1 .f32) (main_arg7 : FVec F S1 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x128 .f32 := Host.absf main_arg2
  let main_cst_0 : FVec F S_ .f32 := constant S_ .f32 0x7F800000#32
  let main_v5 : FVec F S165x128 .f32 := broadcastInDim S165x128 ![] bcast_S_S165x128 main_cst_0
  let main_v6 : IVec S165x128 1 := cmpf .olt main_v4 main_v5
  let main_c_1 : IVec S_ 1 := constantI S_ 1 1#1
  let main_v7 : IVec S_ 1 := (fun x v => Host.reduce IntOp.andi x v reducesTo_S165x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg1 main_arg5 main_arg6 main_arg7 main_v13 main_v16
-- ==== Kernel.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S2x1 : Shape := ⟨2, ![2, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x165 : Shape := ⟨2, ![5000, 165]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩
abbrev S1x1 : Shape := ⟨2, ![1, 1]⟩

abbrev nBuf : Space → Nat
  | .hbm => 85
  | .vmem => 30
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S2x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000x1, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x2, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x2, .f32⟩
  | .hbm, ⟨76, _⟩ => ⟨S1600000x2, .f32⟩
  | .hbm, ⟨77, _⟩ => ⟨S1600000x2, .f32⟩
  | .hbm, ⟨78, _⟩ => ⟨S_, .f32⟩
  | .hbm, ⟨79, _⟩ => ⟨S100000x2, .f32⟩
  | .hbm, ⟨80, _⟩ => ⟨S1600000x1, .i32⟩
  | .hbm, ⟨81, _⟩ => ⟨S100000x2, .f32⟩
  | .hbm, ⟨82, _⟩ => ⟨S1x2, .f32⟩
  | .hbm, ⟨83, _⟩ => ⟨S1x1, .f32⟩
  | .hbm, ⟨84, _⟩ => ⟨S100000x1, .f32⟩
  | .local _ .vmem, ⟨0, _⟩ => ⟨S5000x165, .f32⟩
  | .local _ .vmem, ⟨1, _⟩ => ⟨S5000x165, .f32⟩
  | .local _ .vmem, ⟨2, _⟩ => ⟨S165x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x2, .f32⟩
  | .local _ .vmem, ⟨17, _⟩ => ⟨S5000x2, .f32⟩
  | .local _ .vmem, ⟨18, _⟩ => ⟨S5000x2, .f32⟩
  | .local _ .vmem, ⟨19, _⟩ => ⟨S5000x2, .f32⟩
  | .local _ .vmem, ⟨20, _⟩ => ⟨S5000x2, .f32⟩
  | .local _ .vmem, ⟨21, _⟩ => ⟨S5000x2, .f32⟩
  | .local _ .vmem, ⟨22, _⟩ => ⟨S5000x2, .f32⟩
  | .local _ .vmem, ⟨23, _⟩ => ⟨S5000x1, .f32⟩
  | .local _ .vmem, ⟨24, _⟩ => ⟨S5000x1, .f32⟩
  | .local _ .vmem, ⟨25, _⟩ => ⟨S1x2, .f32⟩
  | .local _ .vmem, ⟨26, _⟩ => ⟨S2x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  shapeCasts_S100000_S100000x1 : S100000.ShapeCasts S100000x1
  inb_S5000x165_S5000x165_0_0 : ∀ a, (![0, 0] : Fin 2 → Nat) a + S5000x165.size a ≤ S5000x165.size a
  h_S5000x165 : 0 < S5000x165.numel
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  shapeCasts_S2_S1x2 : S2.ShapeCasts S1x2
  shapeCasts_S1_S1x1 : S1.ShapeCasts S1x1
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S2x1_S2x1_0_0 : ∀ a, (![0, 0] : Fin 2 → Nat) a + S2x1.size a ≤ S2x1.size a
  h_S2x1 : 0 < S2x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x165_S165x128_S5000x128_1_0_0_1_n_n_wf : DotDims.WF S5000x165 S165x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x2_S5000x2_1_0_0_1_n_n_wf : DotDims.WF S5000x128 S128x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S5000x2_S2x1_S5000x1_1_0_0_1_n_n_wf : DotDims.WF S5000x2 S2x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x165.size a ≤ S100000x165.size a
  hwx0_0 : ∀ i : grid0.Coords, EltTy.bits .f32 = 32 ∨ (Rect.block (s := S100000x165) S5000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x128.size a ≤ S165x128.size a
  hwx0_1 : ∀ i : grid0.Coords, EltTy.bits .f32 = 32 ∨ (Rect.block (s := S165x128) S165x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S100000x2.size a
  hwx3_1 : ∀ i : grid3.Coords, EltTy.bits .f32 = 32 ∨ (Rect.block (s := S100000x2) S5000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2x1.size a ≤ S2x1.size a
  hwx3_4 : ∀ i : grid3.Coords, EltTy.bits .f32 = 32 ∨ (Rect.block (s := S2x1) S2x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S100000x1.size a
  hwx3_6 : ∀ i : grid3.Coords, EltTy.bits .f32 = 32 ∨ (Rect.block (s := S100000x1) S5000x1.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x165_S165x128_S5000x128_1_0_0_1_n_n : DotDims S5000x165 S165x128 S5000x128 where
  lhsContracting := [1]
  rhsContracting := [0]
  lhsNonContracting := [0]
  rhsNonContracting := [1]
  lhsBatch := []
  rhsBatch := []
  wf := dot_S5000x165_S165x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S5000x2_S2x1_S5000x1_1_0_0_1_n_n : DotDims S5000x2 S2x1 S5000x1 where
  lhsContracting := [1]
  rhsContracting := [0]
  lhsNonContracting := [0]
  rhsNonContracting := [1]
  lhsBatch := []
  rhsBatch := []
  wf := dot_S5000x2_S2x1_S5000x1_1_0_0_1_n_n_wf

abbrev win0_0 : Pipeline.Window sig grid0 :=
  Pipeline.Window.ofSpec (Memref.whole main_arg0) S5000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S2x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S5000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S2x1 : Shape := ⟨2, ![2, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x2 : Shape := ⟨2, ![100000, 2]⟩
abbrev S1600000x2 : Shape := ⟨2, ![1600000, 2]⟩
abbrev S1x2 : Shape := ⟨2, ![1, 2]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S100000x165, .f32⟩
  | 1 => ⟨S2x1600000, .i32⟩
  | 2 => ⟨S165x128, .f32⟩
  | 3 => ⟨S128, .f32⟩
  | 4 => ⟨S128x2, .f32⟩
  | 5 => ⟨S2, .f32⟩
  | 6 => ⟨S2x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S100000, .f32⟩
  | 15 => ⟨S_, .f32⟩
  | 16 => ⟨S1600000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S100000x128, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S1x1600000, .i32⟩
  | 79 => ⟨S1600000, .i32⟩
  | 80 => ⟨S1x1600000, .i32⟩
  | 81 => ⟨S1600000, .i32⟩
  | 82 => ⟨S100000x2, .f32⟩
  | 83 => ⟨S_, .f32⟩
  | 84 => ⟨S100000, .f32⟩
  | 85 => ⟨S_, .f32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S100000, .f32⟩
  | 96 => ⟨S100000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x2, .f32⟩
  | 125 => ⟨S1600000x1, .f32⟩
  | 126 => ⟨S1600000x2, .f32⟩
  | 127 => ⟨S1600000x2, .f32⟩
  | _ => ⟨S100000x165, .f32⟩

abbrev hbmTy0_1 (i : Nat) : BufTy := match i % 128 with
  | 0 => ⟨S_, .f32⟩
  | 1 => ⟨S100000x2, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S100000x2, .f32⟩
  | 11 => ⟨S100000, .f32⟩
  | 12 => ⟨S100000x1, .f32⟩
  | 13 => ⟨S100000x2, .f32⟩
  | 14 => ⟨S100000x2, .f32⟩
  | 15 => ⟨S100000x2, .f32⟩
  | 16 => ⟨S1x2, .f32⟩
  | 17 => ⟨S100000x2, .f32⟩
  | 18 => ⟨S100000x2, .f32⟩
  | 19 => ⟨S100000x2, .f32⟩
  | 20 => ⟨S100000x1, .f32⟩
  | 21 => ⟨S1x1, .f32⟩
  | 22 => ⟨S100000x1, .f32⟩
  | 23 => ⟨S100000x1, .f32⟩
  | 24 => ⟨S100000x1, .f32⟩
  | 25 => ⟨S100000x1, .f32⟩
  | 26 => ⟨S_, .f32⟩
  | 27 => ⟨S100000x1, .f32⟩
  | 28 => ⟨S100000x1, .f32⟩
  | 29 => ⟨S_, .f32⟩
  | 30 => ⟨S100000x1, .f32⟩
  | 31 => ⟨S100000x1, .f32⟩
  | _ => ⟨S100000x165, .f32⟩

abbrev hbmTy (i : Nat) : BufTy := match i / 128 with
  | 0 => hbmTy0_0 i
  | 1 => hbmTy0_1 i
  | _ => ⟨S100000x165, .f32⟩

abbrev bufTy : (tb : Table) → Fin (tcTables nBuf tb) → BufTy
  | .hbm, ⟨i, _⟩ => hbmTy i
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_c_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_19 : Ref sig .tc := ⟨.hbm, 116, rfl⟩
abbrev main_v87 : Ref sig .tc := ⟨.hbm, 117, rfl⟩
abbrev main_v88 : Ref sig .tc := ⟨.hbm, 118, rfl⟩
abbrev main_c_20 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_21 : Ref sig .tc := ⟨.hbm, 128, rfl⟩
abbrev main_v97 : Ref sig .tc := ⟨.hbm, 129, rfl⟩
abbrev main_c_22 : Ref sig .tc := ⟨.hbm, 130, rfl⟩
abbrev main_v98 : Ref sig .tc := ⟨.hbm, 131, rfl⟩
abbrev main_v99 : Ref sig .tc := ⟨.hbm, 132, rfl⟩
abbrev main_c_23 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_24 : Ref sig .tc := ⟨.hbm, 154, rfl⟩
abbrev main_v120 : Ref sig .tc := ⟨.hbm, 155, rfl⟩
abbrev main_v121 : Ref sig .tc := ⟨.hbm, 156, rfl⟩
abbrev main_cst_25 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x165_S165x128_S100000x128_1_0_0_1_n_n_wf : DotDims.WF S100000x165 S165x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S100000x2_S2x1_S100000x1_1_0_0_1_n_n_wf : DotDims.WF S100000x2 S2x1 S100000x1 [1] [0] [0] [1] [] []

variable [Facts₀]

def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S100000x2_S2x1_S100000x1_1_0_0_1_n_n : DotDims S100000x2 S2x1 S100000x1 where
  lhsContracting := [1]
  rhsContracting := [0]
  lhsNonContracting := [0]
  rhsNonContracting := [1]
  lhsBatch := []
  rhsBatch := []
  wf := dot_S100000x2_S2x1_S100000x1_1_0_0_1_n_n_wf

class Facts : Prop extends Facts₀ where

variable [Facts]
-- ==== Proof.KernelRun.lean ====
/-
  The idealized kernel's run with its result named: every weakly fair execution of @main terminates, nothing faults,
  the arguments end as launched, and the result array ends at what the last region's write-backs leave, read through
  the fold of @main's seven segments (three stretches of host operations and four regions) from the launch memory.
-/
import proofs.«160691_j11699490914960_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, its last thread state read at the result's buffer and at each argument's. -/
theorem run_result : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.BlockValues.lean ====
/-
  The four kernel bodies at an entry of their output block, on the extended reals.
  A block is 5000 consecutive rows of the node axis. The two projection bodies multiply a block of rows by the whole
  weight matrix: entry (p, q) is the sum over k of x[p, k] · w[k, q] (rounding the operands to bf16 is the identity on
  the extended reals, and the accumulator starts at zero). The two post-processing bodies are pointwise in the row:
  tanh((agg + h · s) + b) with s the row's self-loop coefficient (one column) and b the bias (one row); the last body
  then contracts the two embedding columns against the classifier column, adds its bias and applies the logistic
  function.
-/
import proofs.«160691_j11699490914960_1_alg».proof.Proof.Gen.KernelIdeal.Skeleton
import Idealize.ShloMosaic.Lib.Pipeline.Value
import Idealize.ShloMosaic.Lib.ValueIdx
import Idealize.ShloMosaic.PureOps.Ideal.Laws

noncomputable section
namespace Cert.KernelIdeal.BlockValue
open Cert.KernelIdeal Cert.KernelIdeal.Gen Idealize.ShloMosaic Idealize.ShloMosaic.ValueIdx

/-! ## The three block products -/

theorem dotA_lhs0 (i : S5000x128.Idx) (q : dot_S5000x165_S165x128_S5000x128_1_0_0_1_n_n.contr.Idx) : (dot_S5000x165_S165x128_S5000x128_1_0_0_1_n_n.lhsIdx i q 0).val = (i 0).val := by
  unfold DotDims.lhsIdx
  rw [dif_neg (show ¬(0 : Fin S5000x165.rank) ∈ dot_S5000x165_S165x128_S5000x128_1_0_0_1_n_n.lhsBatch by decide), dif_pos (show (0 : Fin S5000x165.rank) ∈ dot_S5000x165_S165x128_S5000x128_1_0_0_1_n_n.lhsNonContracting by decide)]
  rfl
theorem dotA_rhs1 (i : S5000x128.Idx) (q : dot_S5000x165_S165x128_S5000x128_1_0_0_1_n_n.contr.Idx) : (dot_S5000x165_S165x128_S5000x128_1_0_0_1_n_n.rhsIdx i q 1).val = (i 1).val := by
  unfold DotDims.rhsIdx
  rw [dif_neg (show ¬(1 : Fin S165x128.rank) ∈ dot_S5000x165_S165x128_S5000x128_1_0_0_1_n_n.rhsBatch by decide), dif_pos (show (1 : Fin S165x128.rank) ∈ dot_S5000x165_S165x128_S5000x128_1_0_0_1_n_n.rhsNonContracting by decide)]
  rfl

/-- The block product at an entry: row `p` of the left block against column `q` of the right one. -/
theorem dotA_apply (x : FVec Ideal S5000x165 .bf16) (w : FVec Ideal S165x128 .bf16) (p : Fin 5000) (q : Fin 128) :
    FloatOps.matmul dot_S5000x165_S165x128_S5000x128_1_0_0_1_n_n none x w (constant S5000x128 .f32 0x00000000#32) (ix2 p q) = ∑ k : Fin 165, x (ix2 p k) * w (ix2 k q) := by
  rw [Ideal.matmul_constant_zero_apply, ← Equiv.sum_comp (contrEquiv1 dot_S5000x165_S165x128_S5000x128_1_0_0_1_n_n 165 rfl rfl).symm]
  refine Finset.sum_congr rfl fun k _ => ?_
  have hk := contrEquiv1_symm_val dot_S5000x165_S165x128_S5000x128_1_0_0_1_n_n 165 rfl rfl k
  have el : dot_S5000x165_S165x128_S5000x128_1_0_0_1_n_n.lhsIdx (ix2 p q) ((contrEquiv1 dot_S5000x165_S165x128_S5000x128_1_0_0_1_n_n 165 rfl rfl).symm k) = ix2 p k := funext fun a => Fin.ext (by
    match a with
    | ⟨0, _⟩ => exact dotA_lhs0 _ _
    | ⟨1, _⟩ => exact (dot_S5000x165_S165x128_S5000x128_1_0_0_1_n_n.lhsIdx_val_of_single rfl _ _).trans hk)
  have er : dot_S5000x165_S165x128_S5000x128_1_0_0_1_n_n.rhsIdx (ix2 p q) ((contrEquiv1 dot_S5000x165_S165x128_S5000x128_1_0_0_1_n_n 165 rfl rfl).symm k) = ix2 k q := funext fun a => Fin.ext (by
    match a with
    | ⟨0, _⟩ => exact (dot_S5000x165_S165x128_S5000x128_1_0_0_1_n_n.rhsIdx_val_of_single rfl _ _).trans hk
    | ⟨1, _⟩ => exact dotA_rhs1 _ _)
  rw [el, er]

theorem dotB_lhs0 (i : S5000x2.Idx) (q : dot_S5000x128_S128x2_S5000x2_1_0_0_1_n_n.contr.Idx) : (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem dotB_rhs1 (i : S5000x2.Idx) (q : dot_S5000x128_S128x2_S5000x2_1_0_0_1_n_n.contr.Idx) : (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The block product at an entry: row `p` of the left block against column `q` of the right one. -/
theorem dotB_apply (x : FVec Ideal S5000x128 .bf16) (w : FVec Ideal S128x2 .bf16) (p : Fin 5000) (q : Fin 2) :
    FloatOps.matmul dot_S5000x128_S128x2_S5000x2_1_0_0_1_n_n none x w (constant S5000x2 .f32 0x00000000#32) (ix2 p q) = ∑ k : Fin 128, x (ix2 p k) * w (ix2 k q) := by
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k := funext fun a => Fin.ext (by
    match a with
    | ⟨0, _⟩ => exact dotB_lhs0 _ _
    | ⟨1, _⟩ => exact (dot_S5000x128_S128x2_S5000x2_1_0_0_1_n_n.lhsIdx_val_of_single rfl _ _).trans hk)
  have er : dot_S5000x128_S128x2_S5000x2_1_0_0_1_n_n.rhsIdx (ix2 p q) ((contrEquiv1 dot_S5000x128_S128x2_S5000x2_1_0_0_1_n_n 128 rfl rfl).symm k) = ix2 k q := funext fun a => Fin.ext (by
    match a with
    | ⟨0, _⟩ => exact (dot_S5000x128_S128x2_S5000x2_1_0_0_1_n_n.rhsIdx_val_of_single rfl _ _).trans hk
    | ⟨1, _⟩ => exact dotB_rhs1 _ _)
  rw [el, er]

theorem dotC_lhs0 (i : S5000x1.Idx) (q : dot_S5000x2_S2x1_S5000x1_1_0_0_1_n_n.contr.Idx) : (dot_S5000x2_S2x1_S5000x1_1_0_0_1_n_n.lhsIdx i q 0).val = (i 0).val := by
  unfold DotDims.lhsIdx
  rw [dif_neg (show ¬(0 : Fin S5000x2.rank) ∈ dot_S5000x2_S2x1_S5000x1_1_0_0_1_n_n.lhsBatch by decide), dif_pos (show (0 : Fin S5000x2.rank) ∈ dot_S5000x2_S2x1_S5000x1_1_0_0_1_n_n.lhsNonContracting by decide)]
  rfl
theorem dotC_rhs1 (i : S5000x1.Idx) (q : dot_S5000x2_S2x1_S5000x1_1_0_0_1_n_n.contr.Idx) : (dot_S5000x2_S2x1_S5000x1_1_0_0_1_n_n.rhsIdx i q 1).val = (i 1).val := by
  unfold DotDims.rhsIdx
  rw [dif_neg (show ¬(1 : Fin S2x1.rank) ∈ dot_S5000x2_S2x1_S5000x1_1_0_0_1_n_n.rhsBatch by decide), dif_pos (show (1 : Fin S2x1.rank) ∈ dot_S5000x2_S2x1_S5000x1_1_0_0_1_n_n.rhsNonContracting by decide)]
  rfl

/-- The block product at an entry: row `p` of the left block against column `q` of the right one. -/
theorem dotC_apply (x : FVec Ideal S5000x2 .bf16) (w : FVec Ideal S2x1 .bf16) (p : Fin 5000) (q : Fin 1) :
    FloatOps.matmul dot_S5000x2_S2x1_S5000x1_1_0_0_1_n_n none x w (constant S5000x1 .f32 0x00000000#32) (ix2 p q) = ∑ k : Fin 2, x (ix2 p k) * w (ix2 k q) := by
  rw [Ideal.matmul_constant_zero_apply, ← Equiv.sum_comp (contrEquiv1 dot_S5000x2_S2x1_S5000x1_1_0_0_1_n_n 2 rfl rfl).symm]
  refine Finset.sum_congr rfl fun k _ => ?_
  have hk := contrEquiv1_symm_val dot_S5000x2_S2x1_S5000x1_1_0_0_1_n_n 2 rfl rfl k
  have el : dot_S5000x2_S2x1_S5000x1_1_0_0_1_n_n.lhsIdx (ix2 p q) ((contrEquiv1 dot_S5000x2_S2x1_S5000x1_1_0_0_1_n_n 2 rfl rfl).symm k) = ix2 p k := funext fun a => Fin.ext (by
    match a with
    | ⟨0, _⟩ => exact dotC_lhs0 _ _
    | ⟨1, _⟩ => exact (dot_S5000x2_S2x1_S5000x1_1_0_0_1_n_n.lhsIdx_val_of_single rfl _ _).trans hk)
  have er : dot_S5000x2_S2x1_S5000x1_1_0_0_1_n_n.rhsIdx (ix2 p q) ((contrEquiv1 dot_S5000x2_S2x1_S5000x1_1_0_0_1_n_n 2 rfl rfl).symm k) = ix2 k q := funext fun a => Fin.ext (by
    match a with
    | ⟨0, _⟩ => exact (dot_S5000x2_S2x1_S5000x1_1_0_0_1_n_n.rhsIdx_val_of_single rfl _ _).trans hk
    | ⟨1, _⟩ => exact dotC_rhs1 _ _)
  rw [el, er]

/-! ## A column, a row and a single entry spread over a block -/

theorem col_over_128 (v : Vec Ideal S5000x1 .f32) (p : Fin 5000) (q : Fin 128) :
    broadcastTo S5000x128 v broadcasts_S5000x1_S5000x128 (ix2 p q) = v (ix2 p (0 : Fin 1)) :=
  broadcastTo_apply v _ _ _ (fun a => match a with
    | ⟨0, _⟩ => rfl
    | ⟨1, _⟩ => rfl)

theorem row_over_128 (v : Vec Ideal S1x128 .f32) (p : Fin 5000) (q : Fin 128) :
    broadcastTo S5000x128 v broadcasts_S1x128_S5000x128 (ix2 p q) = v (ix2 (0 : Fin 1) q) :=
  broadcastTo_apply v _ _ _ (fun a => match a with
    | ⟨0, _⟩ => rfl
    | ⟨1, _⟩ => rfl)

theorem col_over_2 (v : Vec Ideal S5000x1 .f32) (p : Fin 5000) (q : Fin 2) :
    broadcastTo S5000x2 v broadcasts_S5000x1_S5000x2 (ix2 p q) = v (ix2 p (0 : Fin 1)) :=
  broadcastTo_apply v _ _ _ (fun a => match a with
    | ⟨0, _⟩ => rfl
    | ⟨1, _⟩ => rfl)

theorem row_over_2 (v : Vec Ideal S1x2 .f32) (p : Fin 5000) (q : Fin 2) :
    broadcastTo S5000x2 v broadcasts_S1x2_S5000x2 (ix2 p q) = v (ix2 (0 : Fin 1) q) :=
  broadcastTo_apply v _ _ _ (fun a => match a with
    | ⟨0, _⟩ => rfl
    | ⟨1, _⟩ => rfl)

theorem one_over_col (v : Vec Ideal S1x1 .f32) (p : Fin 5000) (q : Fin 1) :
    broadcastTo S5000x1 v broadcasts_S1x1_S5000x1 (ix2 p q) = v (ix2 (0 : Fin 1) (0 : Fin 1)) :=
  broadcastTo_apply v _ _ _ (fun a => match a with
    | ⟨0, _⟩ => rfl
    | ⟨1, _⟩ => rfl)

/-! ## The bodies -/

/-- First projection: rows of `x` against `W1`. -/
theorem proj1_apply (x : Vec Ideal S5000x165 .f32) (w : Vec Ideal S165x128 .f32) (p : Fin 5000) (q : Fin 128) :
    k0_pay1 x w (ix2 p q) = ∑ k : Fin 165, x (ix2 p k) * w (ix2 k q) := by
  unfold k0_pay1
  exact dotA_apply _ _ p q

/-- First layer's activation: tanh of aggregate + self-loop term + bias. -/
theorem act1_apply (a h : Vec Ideal S5000x128 .f32) (v : Vec Ideal S5000x1 .f32) (b : Vec Ideal S1x128 .f32) (p : Fin 5000) (q : Fin 128) :
    k1_pay1 a h v b (ix2 p q) = Ideal.tanh ((a (ix2 p q) + h (ix2 p q) * v (ix2 p (0 : Fin 1))) + b (ix2 (0 : Fin 1) q)) := by
  unfold k1_pay1
  simp only [shapeCast_self]
  show Ideal.tanh ((a (ix2 p q) + h (ix2 p q) * broadcastTo S5000x128 v broadcasts_S5000x1_S5000x128 (ix2 p q)) + broadcastTo S5000x128 b broadcasts_S1x128_S5000x128 (ix2 p q)) = _
  rw [col_over_128, row_over_128]

/-- Second projection: rows of the hidden layer against `W2`. -/
theorem proj2_apply (x : Vec Ideal S5000x128 .f32) (w : Vec Ideal S128x2 .f32) (p : Fin 5000) (q : Fin 2) :
    k2_pay1 x w (ix2 p q) = ∑ k : Fin 128, x (ix2 p k) * w (ix2 k q) := by
  unfold k2_pay1
  simp only [shapeCast_self]
  exact dotB_apply _ _ p q

/-- The embedding entry the last body forms before contracting. -/
def emb (a h : Vec Ideal S5000x2 .f32) (v : Vec Ideal S5000x1 .f32) (b : Vec Ideal S1x2 .f32) (p : Fin 5000) (k : Fin 2) : EReal :=
  Ideal.tanh ((a (ix2 p k) + h (ix2 p k) * v (ix2 p (0 : Fin 1))) + b (ix2 (0 : Fin 1) k))

/-- Second layer's activation, the classifier and the logistic function. -/
theorem out_apply (a h : Vec Ideal S5000x2 .f32) (v : Vec Ideal S5000x1 .f32) (b : Vec Ideal S1x2 .f32)
    (wc : Vec Ideal S2x1 .f32) (bc : Vec Ideal S1x1 .f32) (p : Fin 5000) (q : Fin 1) :
    k3_pay1 a h v b wc bc (ix2 p q)
      = Ideal.logistic ((∑ k : Fin 2, emb a h v b p k * wc (ix2 k q)) + bc (ix2 (0 : Fin 1) (0 : Fin 1))) := by
  unfold k3_pay1
  simp only [shapeCast_self]
  show Ideal.logistic (FloatOps.matmul (F := Ideal) dot_S5000x2_S2x1_S5000x1_1_0_0_1_n_n none _ _ (constant (F := Ideal) S5000x1 .f32 0x00000000#32) (ix2 p q)
    + broadcastTo S5000x1 bc broadcasts_S1x1_S5000x1 (ix2 p q)) = _
  rw [dotC_apply, one_over_col]
  refine congrArg (fun s => Ideal.logistic (s + _)) (Finset.sum_congr rfl fun k _ => ?_)
  show Ideal.tanh ((a (ix2 p k) + h (ix2 p k) * broadcastTo S5000x2 v broadcasts_S5000x1_S5000x2 (ix2 p k)) + broadcastTo S5000x2 b broadcasts_S1x2_S5000x2 (ix2 p k)) * wc (ix2 k q) = _
  rw [col_over_2, row_over_2]
  rfl

end Cert.KernelIdeal.BlockValue
end
-- ==== Proof.NodeArrays.lean ====
/-
  The four whole-array functions the regions compute, entry by entry over the node axis (100000 rows):
  the two projections (a row of the left array against a column of the weights), the first activation
  tanh(aggregate + projection · self-loop coefficient + bias), and the final score: the logistic function of the second
  activation contracted against the classifier column, plus its bias.
-/
import proofs.«160691_j11699490914960_1_alg».proof.KernelIdeal
import Idealize.ShloMosaic.PureOps.Ideal
import Idealize.ShloMosaic.Lib.ValueIdx

noncomputable section
namespace Cert.KernelIdeal.RegionValue
open Cert.KernelIdeal Idealize.ShloMosaic Idealize.ShloMosaic.ValueIdx

/-- Row `i 0` of the left array against column `i 1` of the weights. -/
def proj1Arr (x : S100000x165.Idx → EReal) (w : S165x128.Idx → EReal) : S100000x128.Idx → EReal :=
  fun i => ∑ k : Fin 165, x (ix2 (⟨(i 0).val, (i 0).isLt⟩ : Fin 100000) k) * w (ix2 k (⟨(i 1).val, (i 1).isLt⟩ : Fin 128))

/-- tanh(aggregate + projection · self-loop coefficient + bias), entry by entry over the node × feature array. -/
def act1Arr (agg h : S100000x128.Idx → EReal) (s : S100000x1.Idx → EReal) (b : S1x128.Idx → EReal) : S100000x128.Idx → EReal :=
  fun i => Ideal.tanh ((agg i + h i * s (ix2 (⟨(i 0).val, (i 0).isLt⟩ : Fin 100000) (0 : Fin 1))) + b (ix2 (0 : Fin 1) (⟨(i 1).val, (i 1).isLt⟩ : Fin 128)))

/-- Row `i 0` of the hidden layer against column `i 1` of the second weights. -/
def proj2Arr (x : S100000x128.Idx → EReal) (w : S128x2.Idx → EReal) : S100000x2.Idx → EReal :=
  fun i => ∑ k : Fin 128, x (ix2 (⟨(i 0).val, (i 0).isLt⟩ : Fin 100000) k) * w (ix2 k (⟨(i 1).val, (i 1).isLt⟩ : Fin 2))

/-- The embedding entry (node `r`, column `k`): tanh(aggregate + projection · self-loop coefficient + bias). -/
def embArr (agg h : S100000x2.Idx → EReal) (s : S100000x1.Idx → EReal) (b : S1x2.Idx → EReal) (r : Fin 100000) (k : Fin 2) : EReal :=
  Ideal.tanh ((agg (ix2 r k) + h (ix2 r k) * s (ix2 r (0 : Fin 1))) + b (ix2 (0 : Fin 1) k))

/-- The score of node `i 0`: the logistic function of its embedding against the classifier column plus the bias. -/
def outArr (agg h : S100000x2.Idx → EReal) (s : S100000x1.Idx → EReal) (b : S1x2.Idx → EReal)
    (wc : S2x1.Idx → EReal) (bc : S1x1.Idx → EReal) : S100000x1.Idx → EReal :=
  fun i => Ideal.logistic ((∑ k : Fin 2, embArr agg h s b (⟨(i 0).val, (i 0).isLt⟩ : Fin 100000) k * wc (ix2 k (⟨(i 1).val, (i 1).isLt⟩ : Fin 1)))
    + bc (ix2 (0 : Fin 1) (0 : Fin 1)))

end Cert.KernelIdeal.RegionValue
end
-- ==== Proof.RegionArrays.lean ====
/-
  What each of the four regions leaves in its output array, as one function of the arrays it finds on entry.
  Every region runs over twenty grid points; point t works on rows 5000·t … 5000·t + 4999 of the node axis and reads the
  small operands (weights, biases) whole. What point t writes back is therefore block t of one whole-array function of the
  entry arrays, and since row r lies in the block of point r / 5000 the twenty blocks tile the output: the array ends at
  that function everywhere.
-/
import proofs.«160691_j11699490914960_1_alg».proof.Proof.Gen.KernelIdeal.Frame
import proofs.«160691_j11699490914960_1_alg».proof.Proof.BlockValues
import proofs.«160691_j11699490914960_1_alg».proof.Proof.NodeArrays

set_option maxRecDepth 16384
noncomputable section
namespace Cert.KernelIdeal.RegionValue
open Cert.KernelIdeal Cert.KernelIdeal.Gen Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-! ## The first projection over all nodes -/

theorem idx0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0 :=
  (by decide +kernel : ∀ t : Fin grid0.N, _)

theorem flushed0 (c : Dev nD) (t : Fin cfg0.N) :
    (dat0 V c).flushed 2 t = ((cfg0.win 2).blk t).view.read (Elt Ideal) (proj1Arr (V c main_arg0) (V c main_arg2)) := by
  show (cfg0.win 2).cut (grid0.coords t) ((dat0 V c).after 2 t) = _
  rw [after0_2]
  unfold out0_2
  rw [View.canon_unit_zero hz]
  simp only [View.ld_unit_zero (S := S5000x165) hz, View.ld_unit_zero (S := S165x128) hz]
  obtain ⟨e00, e01, e10, e11, e20, e21⟩ := idx0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = proj1Arr (V c main_arg0) (V c main_arg2) (((cfg0.win 2).blk t).view.emb (ix2 p q))
  rw [BlockValue.proj1_apply (iblk0 V c 0 t) (iblk0 V c 1 t) p q]
  unfold proj1Arr
  have hp : p.val < 5000 := p.isLt
  have hq : q.val < 128 := q.isLt
  refine Finset.sum_congr rfl fun k _ => ?_
  have hk : k.val < 165 := k.isLt
  have r0 : iblk0 V c 0 t (ix2 p k) = V c main_arg0 (ix2 (⟨((((cfg0.win 2).blk t).view.emb (ix2 p q)) 0).val, ((((cfg0.win 2).blk t).view.emb (ix2 p q)) 0).isLt⟩ : Fin 100000) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 165 + 1 * k.val = k.val; omega
  have r1 : iblk0 V c 1 t (ix2 k q) = V c main_arg2 (ix2 k (⟨((((cfg0.win 2).blk t).view.emb (ix2 p q)) 1).val, ((((cfg0.win 2).blk t).view.emb (ix2 p q)) 1).isLt⟩ : Fin 128)) := by
    show V c main_arg2 (((cfg0.win 1).blk t).view.emb (ix2 k q)) = _
    refine congrArg _ (funext fun a => Fin.ext ?_)
    match a with
    | ⟨0, _⟩ => show win0_1.index t (0 : Fin 2) * 165 + 1 * k.val = k.val; omega
    | ⟨1, _⟩ => show win0_1.index t (1 : Fin 2) * 128 + 1 * q.val = win0_2.index t (1 : Fin 2) * 128 + 1 * q.val; omega
  rw [r0, r1]

theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the output lies in the block of point `r / 5000`: the twenty blocks tile the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  let t : Fin cfg0.N := ⟨(i 0).val / 5000, by show _ < grid0.N; omega⟩
  refine ⟨t, flush0_2 t, ?_⟩
  rw [mem_blk0]
  obtain ⟨-, -, -, -, eo0, eo1⟩ := idx0 t
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region leaves the product of its two input arrays in its output array. -/
theorem region0 (c : Dev nD) : (dat0 V c).arrAt 2 cfg0.N = proj1Arr (V c main_arg0) (V c main_arg2) :=
  (dat0 V c).arrAt_eq_of_cover 2 _ (fun t _ => flushed0 V c t) cover0

/-! ## The first activation over all nodes -/

theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = t.val ∧ win1_4.index t (1 : Fin 2) = 0 :=
  (by decide +kernel : ∀ t : Fin grid1.N, _)

theorem flushed1 (c : Dev nD) (t : Fin cfg1.N) :
    (dat1 V c).flushed 4 t = ((cfg1.win 4).blk t).view.read (Elt Ideal)
      (act1Arr (V c main_v44) (V c main_v32) (V c main_v31) (V c main_v45)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (ix2 p q)
    = act1Arr (V c main_v44) (V c main_v32) (V c main_v31) (V c main_v45) (((cfg1.win 4).blk t).view.emb (ix2 p q))
  rw [BlockValue.act1_apply (iblk1 V c 0 t) (iblk1 V c 1 t) (iblk1 V c 2 t) (iblk1 V c 3 t) p q]
  unfold act1Arr
  have hp : p.val < 5000 := p.isLt
  have hq : q.val < 128 := q.isLt
  have r0 : iblk1 V c 0 t (ix2 p q) = V c main_v44 (((cfg1.win 4).blk t).view.emb (ix2 p q)) := by
    show V c main_v44 (((cfg1.win 0).blk t).view.emb (ix2 p q)) = _
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have r1 : iblk1 V c 1 t (ix2 p q) = V c main_v32 (((cfg1.win 4).blk t).view.emb (ix2 p q)) := by
    show V c main_v32 (((cfg1.win 1).blk t).view.emb (ix2 p q)) = _
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have r2 : iblk1 V c 2 t (ix2 p (0 : Fin 1)) = V c main_v31 (ix2 (⟨((((cfg1.win 4).blk t).view.emb (ix2 p q)) 0).val, ((((cfg1.win 4).blk t).view.emb (ix2 p q)) 0).isLt⟩ : Fin 100000) (0 : Fin 1)) := by
    show V c main_v31 (((cfg1.win 2).blk t).view.emb (ix2 p (0 : Fin 1))) = _
    refine congrArg _ (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have r3 : iblk1 V c 3 t (ix2 (0 : Fin 1) q) = V c main_v45 (ix2 (0 : Fin 1) (⟨((((cfg1.win 4).blk t).view.emb (ix2 p q)) 1).val, ((((cfg1.win 4).blk t).view.emb (ix2 p q)) 1).isLt⟩ : Fin 128)) := by
    show V c main_v45 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  rw [r0, r1, r2, r3]

theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46).slice (win1_4.rect t)).set ↔ _
  rw [View.set_slice_whole, Rect.mem_set_unit]
  exact Iff.rfl

theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  let t : Fin cfg1.N := ⟨(i 0).val / 5000, by show _ < grid1.N; omega⟩
  refine ⟨t, flush1_4 t, ?_⟩
  rw [mem_blk1]
  obtain ⟨-, -, -, -, -, -, -, -, e40, e41⟩ := idx1 t
  have ht : t.val = (i 0).val / 5000 := rfl
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- Region 1 leaves the first activation of its four input arrays in its output array. -/
theorem region1 (c : Dev nD) : (dat1 V c).arrAt 4 cfg1.N = act1Arr (V c main_v44) (V c main_v32) (V c main_v31) (V c main_v45) :=
  (dat1 V c).arrAt_eq_of_cover 4 _ (fun t _ => flushed1 V c t) cover1

/-! ## The second projection over all nodes -/

theorem idx2 : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = t.val ∧ win2_2.index t (1 : Fin 2) = 0 :=
  (by decide +kernel : ∀ t : Fin grid2.N, _)

theorem flushed2 (c : Dev nD) (t : Fin cfg2.N) :
    (dat2 V c).flushed 2 t = ((cfg2.win 2).blk t).view.read (Elt Ideal) (proj2Arr (V c main_v46) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x2) hz]
  obtain ⟨e00, e01, e10, e11, e20, e21⟩ := idx2 t
  funext j
  obtain ⟨p, q, rfl⟩ : ∃ (p : Fin 5000) (q : Fin 2), j = ix2 p q := ⟨j 0, j 1, eq_ix2 j⟩
  show k2_pay1 (iblk2 V c 0 t) (iblk2 V c 1 t) (ix2 p q)
    = proj2Arr (V c main_v46) (V c main_arg4) (((cfg2.win 2).blk t).view.emb (ix2 p q))
  rw [BlockValue.proj2_apply (iblk2 V c 0 t) (iblk2 V c 1 t) p q]
  unfold proj2Arr
  have hp : p.val < 5000 := p.isLt
  have hq : q.val < 2 := q.isLt
  refine Finset.sum_congr rfl fun k _ => ?_
  have hk : k.val < 128 := k.isLt
  have r0 : iblk2 V c 0 t (ix2 p k) = V c main_v46 (ix2 (⟨((((cfg2.win 2).blk t).view.emb (ix2 p q)) 0).val, ((((cfg2.win 2).blk t).view.emb (ix2 p q)) 0).isLt⟩ : Fin 100000) k) := by
    show V c main_v46 (((cfg2.win 0).blk t).view.emb (ix2 p k)) = _
    refine congrArg _ (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have r1 : iblk2 V c 1 t (ix2 k q) = V c main_arg4 (ix2 k (⟨((((cfg2.win 2).blk t).view.emb (ix2 p q)) 1).val, ((((cfg2.win 2).blk t).view.emb (ix2 p q)) 1).isLt⟩ : Fin 2)) := by
    show V c main_arg4 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 2 + 1 * q.val = win2_2.index t (1 : Fin 2) * 2 + 1 * q.val; omega
  rw [r0, r1]

theorem mem_blk2 (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v47).slice (win2_2.rect t)).set ↔ _
  rw [View.set_slice_whole, Rect.mem_set_unit]
  exact Iff.rfl

/-- Row `r` of the output lies in the block of point `r / 5000`: the twenty blocks tile the array. -/
theorem cover2 (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have hN : grid2.N = 20 := N_2
  let t : Fin cfg2.N := ⟨(i 0).val / 5000, by show _ < grid2.N; omega⟩
  refine ⟨t, flush2_2 t, ?_⟩
  rw [mem_blk2]
  obtain ⟨-, -, -, -, eo0, eo1⟩ := idx2 t
  have ht : t.val = (i 0).val / 5000 := rfl
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- The region leaves the product of its two input arrays in its output array. -/
theorem region2 (c : Dev nD) : (dat2 V c).arrAt 2 cfg2.N = proj2Arr (V c main_v46) (V c main_arg4) :=
  (dat2 V c).arrAt_eq_of_cover 2 _ (fun t _ => flushed2 V c t) cover2

/-! ## The second activation, the classifier and the logistic function over all nodes -/

theorem idx3 : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = t.val ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 2) = 0 ∧ win3_5.index t (1 : Fin 2) = 0
  ∧ win3_6.index t (0 : Fin 2) = t.val ∧ win3_6.index t (1 : Fin 2) = 0 :=
  (by decide +kernel : ∀ t : Fin grid3.N, _)

set_option maxHeartbeats 2000000 in
theorem flushed3 (c : Dev nD) (t : Fin cfg3.N) :
    (dat3 V c).flushed 6 t = ((cfg3.win 6).blk t).view.read (Elt Ideal)
      (outArr (V c main_v59) (V c main_v47) (V c main_v31) (V c main_v60) (V c main_arg6) (V c main_v61)) := by
  show (cfg3.win 6).cut (grid3.coords t) ((dat3 V c).after 6 t) = _
  rw [after3_6]
  unfold out3_6
  rw [View.canon_unit_zero hz]
  simp only [View.ld_unit_zero (S := S5000x2) hz, View.ld_unit_zero (S := S5000x1) hz, View.ld_unit_zero (S := S1x2) hz,
    View.ld_unit_zero (S := S2x1) hz, View.ld_unit_zero (S := S1x1) hz]
  obtain ⟨e00, e01, e10, e11, e20, e21, e30, e31, e40, e41, e50, e51, e60, e61⟩ := idx3 t
  funext j
  obtain ⟨p, q, rfl⟩ : ∃ (p : Fin 5000) (q : Fin 1), j = ix2 p q := ⟨j 0, j 1, eq_ix2 j⟩
  show k3_pay1 (iblk3 V c 0 t) (iblk3 V c 1 t) (iblk3 V c 2 t) (iblk3 V c 3 t) (iblk3 V c 4 t) (iblk3 V c 5 t) (ix2 p q)
    = outArr (V c main_v59) (V c main_v47) (V c main_v31) (V c main_v60) (V c main_arg6) (V c main_v61) (((cfg3.win 6).blk t).view.emb (ix2 p q))
  rw [BlockValue.out_apply (iblk3 V c 0 t) (iblk3 V c 1 t) (iblk3 V c 2 t) (iblk3 V c 3 t) (iblk3 V c 4 t) (iblk3 V c 5 t) p q]
  unfold outArr
  have hp : p.val < 5000 := p.isLt
  have hq : q.val < 1 := q.isLt
  have r5 : iblk3 V c 5 t (ix2 (0 : Fin 1) (0 : Fin 1)) = V c main_v61 (ix2 (0 : Fin 1) (0 : Fin 1)) := by
    show V c main_v61 (((cfg3.win 5).blk t).view.emb (ix2 (0 : Fin 1) (0 : Fin 1))) = _
    refine congrArg _ (funext fun a => Fin.ext ?_)
    match a with
    | ⟨0, _⟩ => show win3_5.index t (0 : Fin 2) * 1 + 1 * 0 = 0; omega
    | ⟨1, _⟩ => show win3_5.index t (1 : Fin 2) * 1 + 1 * 0 = 0; omega
  rw [r5]
  refine congrArg (fun s => Ideal.logistic (s + _)) (Finset.sum_congr rfl fun k _ => ?_)
  have hk : k.val < 2 := k.isLt
  unfold BlockValue.emb embArr
  have r0 : iblk3 V c 0 t (ix2 p k) = V c main_v59 (ix2 (⟨((((cfg3.win 6).blk t).view.emb (ix2 p q)) 0).val, ((((cfg3.win 6).blk t).view.emb (ix2 p q)) 0).isLt⟩ : Fin 100000) k) := by
    show V c main_v59 (((cfg3.win 0).blk t).view.emb (ix2 p k)) = _
    refine congrArg _ (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 2 + 1 * k.val = k.val; omega
  have r1 : iblk3 V c 1 t (ix2 p k) = V c main_v47 (ix2 (⟨((((cfg3.win 6).blk t).view.emb (ix2 p q)) 0).val, ((((cfg3.win 6).blk t).view.emb (ix2 p q)) 0).isLt⟩ : Fin 100000) k) := by
    show V c main_v47 (((cfg3.win 1).blk t).view.emb (ix2 p k)) = _
    refine congrArg _ (funext fun a => Fin.ext ?_)
    match a with
    | ⟨0, _⟩ => show win3_1.index t (0 : Fin 2) * 5000 + 1 * p.val = win3_6.index t (0 : Fin 2) * 5000 + 1 * p.val; omega
    | ⟨1, _⟩ => show win3_1.index t (1 : Fin 2) * 2 + 1 * k.val = k.val; omega
  have r2 : iblk3 V c 2 t (ix2 p (0 : Fin 1)) = V c main_v31 (ix2 (⟨((((cfg3.win 6).blk t).view.emb (ix2 p q)) 0).val, ((((cfg3.win 6).blk t).view.emb (ix2 p q)) 0).isLt⟩ : Fin 100000) (0 : Fin 1)) := by
    show V c main_v31 (((cfg3.win 2).blk t).view.emb (ix2 p (0 : Fin 1))) = _
    refine congrArg _ (funext fun a => Fin.ext ?_)
    match a with
    | ⟨0, _⟩ => show win3_2.index t (0 : Fin 2) * 5000 + 1 * p.val = win3_6.index t (0 : Fin 2) * 5000 + 1 * p.val; omega
    | ⟨1, _⟩ => show win3_2.index t (1 : Fin 2) * 1 + 1 * 0 = 0; omega
  have r3 : iblk3 V c 3 t (ix2 (0 : Fin 1) k) = V c main_v60 (ix2 (0 : Fin 1) k) := by
    show V c main_v60 (((cfg3.win 3).blk t).view.emb (ix2 (0 : Fin 1) k)) = _
    refine congrArg _ (funext fun a => Fin.ext ?_)
    match a with
    | ⟨0, _⟩ => show win3_3.index t (0 : Fin 2) * 1 + 1 * 0 = 0; omega
    | ⟨1, _⟩ => show win3_3.index t (1 : Fin 2) * 2 + 1 * k.val = k.val; omega
  have r4 : iblk3 V c 4 t (ix2 k q) = V c main_arg6 (ix2 k (⟨((((cfg3.win 6).blk t).view.emb (ix2 p q)) 1).val, ((((cfg3.win 6).blk t).view.emb (ix2 p q)) 1).isLt⟩ : Fin 1)) := by
    show V c main_arg6 (((cfg3.win 4).blk t).view.emb (ix2 k q)) = _
    refine congrArg _ (funext fun a => Fin.ext ?_)
    match a with
    | ⟨0, _⟩ => show win3_4.index t (0 : Fin 2) * 2 + 1 * k.val = k.val; omega
    | ⟨1, _⟩ => show win3_4.index t (1 : Fin 2) * 1 + 1 * q.val = win3_6.index t (1 : Fin 2) * 1 + 1 * q.val; omega
  rw [r0, r1, r2, r3, r4]

theorem mem_blk3 (t : Fin cfg3.N) (i : S100000x1.Idx) :
    i ∈ ((cfg3.win 6).blk t).view.set ↔ ∀ a : Fin 2, win3_6.index t a * S5000x1.size a ≤ (i a).val ∧ (i a).val < win3_6.index t a * S5000x1.size a + S5000x1.size a := by
  show i ∈ ((View.whole main_v62).slice (win3_6.rect t)).set ↔ _
  rw [View.set_slice_whole, Rect.mem_set_unit]
  exact Iff.rfl

/-- Row `r` of the output lies in the block of point `r / 5000`: the twenty blocks tile the array. -/
theorem cover3 (i : S100000x1.Idx) : ∃ t : Fin cfg3.N, (cfg3.win 6).flush t = true ∧ i ∈ ((cfg3.win 6).blk t).view.set := by
  have hi0 : (i 0).val < 100000 := (i 0).isLt
  have hi1 : (i 1).val < 1 := (i 1).isLt
  have hN : grid3.N = 20 := N_3
  let t : Fin cfg3.N := ⟨(i 0).val / 5000, by show _ < grid3.N; omega⟩
  refine ⟨t, flush3_6 t, ?_⟩
  rw [mem_blk3]
  obtain ⟨-, -, -, -, -, -, -, -, -, -, -, -, eo0, eo1⟩ := idx3 t
  have ht : t.val = (i 0).val / 5000 := rfl
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 1 ≤ (i 1).val ∧ (i 1).val < win3_6.index t (1 : Fin 2) * 1 + 1; omega

/-- The last region leaves the nodes' scores in its output array. -/
theorem region3 (c : Dev nD) : (dat3 V c).arrAt 6 cfg3.N
    = outArr (V c main_v59) (V c main_v47) (V c main_v31) (V c main_v60) (V c main_arg6) (V c main_v61) :=
  (dat3 V c).arrAt_eq_of_cover 6 _ (fun t _ => flushed3 V c t) cover3

end Cert.KernelIdeal.RegionValue
end
-- ==== Proof.KernelStages.lean ====
/-
  The kernel's result as one function of the eight argument arrays, composed from named stages.
  From the edge list e: the source indices wrapped where negative, as a column; the destination indices as they are, as a
  column; the edge coefficient rsqrt(deg[src]) · rsqrt(deg[dst]) as a column; the self-loop coefficient rsqrt(deg)² as a
  column. A layer's aggregate gathers the projection's rows at the sources, scales each by its edge coefficient and adds it
  into the row of its destination. Two such layers, then the classifier.
-/
import proofs.«160691_j11699490914960_1_alg».proof.Proof.NodeArrays
import proofs.«160691_j11699490914960_1_alg».proof.Proof.Gen.KernelIdeal
import proofs.«160691_j11699490914960_1_alg».proof.Proof.Gen.ReferenceIdeal.Read

noncomputable section
namespace Cert.KernelIdeal.Stage
open Cert.KernelIdeal Cert.KernelIdeal.Gen Cert.KernelIdeal.RegionValue Idealize.ShloMosaic
open Cert.ReferenceIdeal.Read (val_main_v3 val_main_v29 val_main_v48 val_main_v35)

/-- The source node of every edge (negative indices wrapped by the node count), as a column. -/
def srcCol (e : S2x1600000.Idx → BitVec 32) : S1600000x1.Idx → BitVec 32 := val_main_v35 (F := Ideal) e

/-- The destination node of every edge as given, as a column. -/
def dstCol (e : S2x1600000.Idx → BitVec 32) : S1600000x1.Idx → BitVec 32 :=
  broadcastInDim S1600000x1 ![0] bcast_S1600000_S1600000x1_0 (val_main_v3 (F := Ideal) e)

/-- The edge coefficient rsqrt(deg[src]) · rsqrt(deg[dst]), as a column. -/
def coefCol (e : S2x1600000.Idx → BitVec 32) : S1600000x1.Idx → EReal :=
  shapeCast S1600000x1 (val_main_v29 (F := Ideal) e) shapeCasts_S1600000_S1600000x1

/-- The self-loop coefficient rsqrt(deg)², as a column. -/
def selfCol (e : S2x1600000.Idx → BitVec 32) : S100000x1.Idx → EReal :=
  shapeCast S100000x1 (val_main_v48 (F := Ideal) e) shapeCasts_S100000_S100000x1

/-- The first layer's aggregate: every edge adds its scaled source row into its destination row. -/
def agg1 (hp : S100000x128.Idx → EReal) (e : S2x1600000.Idx → BitVec 32) : S100000x128.Idx → EReal :=
  Host.scatterAdd (F := Ideal) scatter_S100000x128_S1600000x1_S1600000x128_1_0_0_1
    (broadcastInDim S100000x128 ![] bcast_S_S100000x128 (constant (F := Ideal) S_ .f32 0x00000000#32)) (dstCol e)
    (mulf (Host.gather gather_S100000x128_S1600000x1_S1600000x128_1_0_n_n_0_1_1128 hp (srcCol e))
      (broadcastInDim S1600000x128 ![0, 1] bcast_S1600000x1_S1600000x128_0_1 (coefCol e)))

/-- The second layer's aggregate. -/
def agg2 (hp : S100000x2.Idx → EReal) (e : S2x1600000.Idx → BitVec 32) : S100000x2.Idx → EReal :=
  Host.scatterAdd (F := Ideal) scatter_S100000x2_S1600000x1_S1600000x2_1_0_0_1
    (broadcastInDim S100000x2 ![] bcast_S_S100000x2 (constant (F := Ideal) S_ .f32 0x00000000#32)) (dstCol e)
    (mulf (Host.gather gather_S100000x2_S1600000x1_S1600000x2_1_0_n_n_0_1_12 hp (srcCol e))
      (broadcastInDim S1600000x2 ![0, 1] bcast_S1600000x1_S1600000x2_0_1 (coefCol e)))

/-- The hidden layer. -/
def hidden (x : S100000x165.Idx → EReal) (e : S2x1600000.Idx → BitVec 32) (w1 : S165x128.Idx → EReal) (b1 : S128.Idx → EReal) :
    S100000x128.Idx → EReal :=
  act1Arr (agg1 (proj1Arr x w1) e) (proj1Arr x w1) (selfCol e) (shapeCast S1x128 b1 shapeCasts_S128_S1x128)

/-- The second projection. -/
def hp2 (x : S100000x165.Idx → EReal) (e : S2x1600000.Idx → BitVec 32) (w1 : S165x128.Idx → EReal) (b1 : S128.Idx → EReal)
    (w2 : S128x2.Idx → EReal) : S100000x2.Idx → EReal :=
  proj2Arr (hidden x e w1 b1) w2

/-- The kernel's result. -/
def result (x : S100000x165.Idx → EReal) (e : S2x1600000.Idx → BitVec 32) (w1 : S165x128.Idx → EReal) (b1 : S128.Idx → EReal)
    (w2 : S128x2.Idx → EReal) (b2 : S2.Idx → EReal) (wc : S2x1.Idx → EReal) (bc : S1.Idx → EReal) : S100000x1.Idx → EReal :=
  outArr (agg2 (hp2 x e w1 b1 w2) e) (hp2 x e w1 b1 w2) (selfCol e) (shapeCast S1x2 b2 shapeCasts_S2_S1x2) wc
    (shapeCast S1x1 bc shapeCasts_S1_S1x1)

end Cert.KernelIdeal.Stage
end
-- ==== Proof.KernelFold.lean ====
/-
  The contents of the buffers the kernel's regions and host stretches read, boundary by boundary through @main:
  after the first stretch of host operations (the structure arrays computed from the edge list), after each region
  (its output array at the region's whole-array function of what it found on entry, every other buffer as it was), and
  after each later stretch (the layer's aggregate computed from the projection just written). At the end the result
  buffer holds the composed function of the eight argument arrays.
-/
import proofs.«160691_j11699490914960_1_alg».proof.Proof.Gen.KernelIdeal.Frame
import proofs.«160691_j11699490914960_1_alg».proof.Proof.RegionArrays
import proofs.«160691_j11699490914960_1_alg».proof.Proof.KernelStages
import Idealize.ShloMosaic.Lib.StableHlo.Run

set_option maxRecDepth 16384
noncomputable section
namespace Cert.KernelIdeal.FoldValue
open Cert.KernelIdeal Cert.KernelIdeal.Gen Cert.KernelIdeal.RegionValue Idealize.ShloMosaic Idealize.ShloMosaic.TcCoe Idealize.SL.Sem
open Idealize.ShloMosaic.StableHlo
open Cert.ReferenceIdeal.Read (val_main_v1 val_main_v3)

variable (m : (ℓ : Loc nD τ sig) → Buf (Elt Ideal) ℓ) (ρ : Dev nD → PrngReg)

/-! ## After the first stretch: the arguments untouched, the structure arrays computed from the edge list -/
set_option maxHeartbeats 4000000 in
theorem W1_arg0 (c : Dev nD) : W1 m ρ c (Proc.devRef .tc main_arg0) = (m ((c : Thread nD τ).loc main_arg0)) := by
  show StableHlo.after hostOps0 (W0 m ρ c) (Proc.devRef .tc main_arg0) = _
  after_results_simp
  try rfl

set_option maxHeartbeats 4000000 in
theorem W1_arg2 (c : Dev nD) : W1 m ρ c (Proc.devRef .tc main_arg2) = (m ((c : Thread nD τ).loc main_arg2)) := by
  show StableHlo.after hostOps0 (W0 m ρ c) (Proc.devRef .tc main_arg2) = _
  after_results_simp
  try rfl

set_option maxHeartbeats 4000000 in
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp
  try rfl

set_option maxHeartbeats 4000000 in
theorem W1_arg4 (c : Dev nD) : W1 m ρ c (Proc.devRef .tc main_arg4) = (m ((c : Thread nD τ).loc main_arg4)) := by
  show StableHlo.after hostOps0 (W0 m ρ c) (Proc.devRef .tc main_arg4) = _
  after_results_simp
  try rfl

set_option maxHeartbeats 4000000 in
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp
  try rfl

set_option maxHeartbeats 4000000 in
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp
  try rfl

set_option maxHeartbeats 4000000 in
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp
  try rfl

set_option maxHeartbeats 4000000 in
theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  try rfl

set_option maxHeartbeats 4000000 in
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  try rfl

set_option maxHeartbeats 4000000 in
theorem W1_v29 (c : Dev nD) : W1 m ρ c (Proc.devRef .tc main_v29) = Stage.coefCol (m ((c : Thread nD τ).loc main_arg1)) := by
  show StableHlo.after hostOps0 (W0 m ρ c) (Proc.devRef .tc main_v29) = _
  after_results_simp
  try rfl

set_option maxHeartbeats 4000000 in
theorem W1_v31 (c : Dev nD) : W1 m ρ c (Proc.devRef .tc main_v31) = Stage.selfCol (m ((c : Thread nD τ).loc main_arg1)) := by
  show StableHlo.after hostOps0 (W0 m ρ c) (Proc.devRef .tc main_v31) = _
  after_results_simp
  try rfl

/-! ## After the first region -/

theorem W2_v32 (c : Dev nD) : W2 m ρ c (Proc.devRef .tc main_v32) = proj1Arr (m ((c : Thread nD τ).loc main_arg0)) (m ((c : Thread nD τ).loc main_arg2)) :=
  (W2_arr m ρ c 2).trans ((region0 (V1 m ρ) c).trans (congrArg₂ proj1Arr (W1_arg0 m ρ c) (W1_arg2 m ρ c)))

theorem W2_v1 (c : Dev nD) : W2 m ρ c (Proc.devRef .tc main_v1) = val_main_v1 (F := Ideal) (m ((c : Thread nD τ).loc main_arg1)) :=
  (W2_of_ne m ρ c main_v1 (by decide)).trans (W1_v1 m ρ c)

theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)

theorem W2_v29 (c : Dev nD) : W2 m ρ c (Proc.devRef .tc main_v29) = Stage.coefCol (m ((c : Thread nD τ).loc main_arg1)) :=
  (W2_of_ne m ρ c main_v29 (by decide)).trans (W1_v29 m ρ c)

theorem W2_v31 (c : Dev nD) : W2 m ρ c (Proc.devRef .tc main_v31) = Stage.selfCol (m ((c : Thread nD τ).loc main_arg1)) :=
  (W2_of_ne m ρ c main_v31 (by decide)).trans (W1_v31 m ρ c)

theorem W2_arg3 (c : Dev nD) : W2 m ρ c (Proc.devRef .tc main_arg3) = (m ((c : Thread nD τ).loc main_arg3)) :=
  (W2_of_ne m ρ c main_arg3 (by decide)).trans (W1_arg3 m ρ c)

theorem W2_arg4 (c : Dev nD) : W2 m ρ c (Proc.devRef .tc main_arg4) = (m ((c : Thread nD τ).loc main_arg4)) :=
  (W2_of_ne m ρ c main_arg4 (by decide)).trans (W1_arg4 m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W2_arg6 (c : Dev nD) : W2 m ρ c (Proc.devRef .tc main_arg6) = (m ((c : Thread nD τ).loc main_arg6)) :=
  (W2_of_ne m ρ c main_arg6 (by decide)).trans (W1_arg6 m ρ c)

theorem W2_arg7 (c : Dev nD) : W2 m ρ c (Proc.devRef .tc main_arg7) = (m ((c : Thread nD τ).loc main_arg7)) :=
  (W2_of_ne m ρ c main_arg7 (by decide)).trans (W1_arg7 m ρ c)

/-! ## After the second stretch: the first aggregate -/

set_option maxHeartbeats 4000000 in
theorem W3_v44 (c : Dev nD) : W3 m ρ c (Proc.devRef .tc main_v44) = Stage.agg1 (proj1Arr (m ((c : Thread nD τ).loc main_arg0)) (m ((c : Thread nD τ).loc main_arg2))) (m ((c : Thread nD τ).loc main_arg1)) := by
  show StableHlo.after hostOps1 (W2 m ρ c) (Proc.devRef .tc main_v44) = _
  after_results_simp
  rw [W2_v3 m ρ c, W2_v32 m ρ c, W2_v1 m ρ c, W2_v29 m ρ c]
  rfl

set_option maxHeartbeats 4000000 in
theorem W3_v45 (c : Dev nD) : W3 m ρ c (Proc.devRef .tc main_v45) = shapeCast S1x128 (m ((c : Thread nD τ).loc main_arg3)) shapeCasts_S128_S1x128 := by
  show StableHlo.after hostOps1 (W2 m ρ c) (Proc.devRef .tc main_v45) = _
  after_results_simp
  rw [W2_arg3 m ρ c]
  try rfl

set_option maxHeartbeats 4000000 in
theorem W3_v32 (c : Dev nD) : W3 m ρ c (Proc.devRef .tc main_v32) = proj1Arr (m ((c : Thread nD τ).loc main_arg0)) (m ((c : Thread nD τ).loc main_arg2)) := by
  show StableHlo.after hostOps1 (W2 m ρ c) (Proc.devRef .tc main_v32) = _
  after_results_simp
  rw [W2_v32 m ρ c]
  try rfl

set_option maxHeartbeats 4000000 in
theorem W3_v31 (c : Dev nD) : W3 m ρ c (Proc.devRef .tc main_v31) = Stage.selfCol (m ((c : Thread nD τ).loc main_arg1)) := by
  show StableHlo.after hostOps1 (W2 m ρ c) (Proc.devRef .tc main_v31) = _
  after_results_simp
  rw [W2_v31 m ρ c]
  try rfl

set_option maxHeartbeats 4000000 in
theorem W3_v1 (c : Dev nD) : W3 m ρ c (Proc.devRef .tc main_v1) = val_main_v1 (F := Ideal) (m ((c : Thread nD τ).loc main_arg1)) := by
  show StableHlo.after hostOps1 (W2 m ρ c) (Proc.devRef .tc main_v1) = _
  after_results_simp
  rw [W2_v1 m ρ c]
  try rfl

set_option maxHeartbeats 4000000 in
theorem W3_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  rw [W2_v3 m ρ c]
  try rfl

set_option maxHeartbeats 4000000 in
theorem W3_v29 (c : Dev nD) : W3 m ρ c (Proc.devRef .tc main_v29) = Stage.coefCol (m ((c : Thread nD τ).loc main_arg1)) := by
  show StableHlo.after hostOps1 (W2 m ρ c) (Proc.devRef .tc main_v29) = _
  after_results_simp
  rw [W2_v29 m ρ c]
  try rfl

set_option maxHeartbeats 4000000 in
theorem W3_arg4 (c : Dev nD) : W3 m ρ c (Proc.devRef .tc main_arg4) = (m ((c : Thread nD τ).loc main_arg4)) := by
  show StableHlo.after hostOps1 (W2 m ρ c) (Proc.devRef .tc main_arg4) = _
  after_results_simp
  rw [W2_arg4 m ρ c]
  try rfl

set_option maxHeartbeats 4000000 in
theorem W3_arg5 (c : Dev nD) : W3 m ρ c (Proc.devRef .tc main_arg5) = (m ((c : Thread nD τ).loc main_arg5)) := by
  show StableHlo.after hostOps1 (W2 m ρ c) (Proc.devRef .tc main_arg5) = _
  after_results_simp
  rw [W2_arg5 m ρ c]
  try rfl

set_option maxHeartbeats 4000000 in
theorem W3_arg6 (c : Dev nD) : W3 m ρ c (Proc.devRef .tc main_arg6) = (m ((c : Thread nD τ).loc main_arg6)) := by
  show StableHlo.after hostOps1 (W2 m ρ c) (Proc.devRef .tc main_arg6) = _
  after_results_simp
  rw [W2_arg6 m ρ c]
  try rfl

set_option maxHeartbeats 4000000 in
theorem W3_arg7 (c : Dev nD) : W3 m ρ c (Proc.devRef .tc main_arg7) = (m ((c : Thread nD τ).loc main_arg7)) := by
  show StableHlo.after hostOps1 (W2 m ρ c) (Proc.devRef .tc main_arg7) = _
  after_results_simp
  rw [W2_arg7 m ρ c]
  try rfl

/-! ## After the second region: the hidden layer -/

theorem W4_v46 (c : Dev nD) : W4 m ρ c (Proc.devRef .tc main_v46) = Stage.hidden (m ((c : Thread nD τ).loc main_arg0)) (m ((c : Thread nD τ).loc main_arg1)) (m ((c : Thread nD τ).loc main_arg2)) (m ((c : Thread nD τ).loc main_arg3)) :=
  (W4_arr m ρ c 4).trans ((region1 (V3 m ρ) c).trans (by
    show act1Arr (W3 m ρ c (Proc.devRef .tc main_v44)) (W3 m ρ c (Proc.devRef .tc main_v32)) (W3 m ρ c (Proc.devRef .tc main_v31)) (W3 m ρ c (Proc.devRef .tc main_v45)) = _
    rw [W3_v44 m ρ c, W3_v32 m ρ c, W3_v31 m ρ c, W3_v45 m ρ c]; rfl))

theorem W4_v1 (c : Dev nD) : W4 m ρ c (Proc.devRef .tc main_v1) = val_main_v1 (F := Ideal) (m ((c : Thread nD τ).loc main_arg1)) :=
  (W4_of_ne m ρ c main_v1 (by decide)).trans (W3_v1 m ρ c)

theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)

theorem W4_v29 (c : Dev nD) : W4 m ρ c (Proc.devRef .tc main_v29) = Stage.coefCol (m ((c : Thread nD τ).loc main_arg1)) :=
  (W4_of_ne m ρ c main_v29 (by decide)).trans (W3_v29 m ρ c)

theorem W4_v31 (c : Dev nD) : W4 m ρ c (Proc.devRef .tc main_v31) = Stage.selfCol (m ((c : Thread nD τ).loc main_arg1)) :=
  (W4_arr m ρ c 2).trans ((((dat1 (V3 m ρ) c).arrAt_in 2 rfl _).trans (A_eq1 (V3 m ρ) c 2)).trans (W3_v31 m ρ c))

theorem W4_arg4 (c : Dev nD) : W4 m ρ c (Proc.devRef .tc main_arg4) = (m ((c : Thread nD τ).loc main_arg4)) :=
  (W4_of_ne m ρ c main_arg4 (by decide)).trans (W3_arg4 m ρ c)

theorem W4_arg5 (c : Dev nD) : W4 m ρ c (Proc.devRef .tc main_arg5) = (m ((c : Thread nD τ).loc main_arg5)) :=
  (W4_of_ne m ρ c main_arg5 (by decide)).trans (W3_arg5 m ρ c)

theorem W4_arg6 (c : Dev nD) : W4 m ρ c (Proc.devRef .tc main_arg6) = (m ((c : Thread nD τ).loc main_arg6)) :=
  (W4_of_ne m ρ c main_arg6 (by decide)).trans (W3_arg6 m ρ c)

theorem W4_arg7 (c : Dev nD) : W4 m ρ c (Proc.devRef .tc main_arg7) = (m ((c : Thread nD τ).loc main_arg7)) :=
  (W4_of_ne m ρ c main_arg7 (by decide)).trans (W3_arg7 m ρ c)

/-! ## After the third region: the second projection -/

theorem W5_v47 (c : Dev nD) : W5 m ρ c (Proc.devRef .tc main_v47) = Stage.hp2 (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((region2 (V4 m ρ) c).trans (by
    show proj2Arr (W4 m ρ c (Proc.devRef .tc main_v46)) (W4 m ρ c (Proc.devRef .tc main_arg4)) = _
    rw [W4_v46 m ρ c, W4_arg4 m ρ c]; rfl))

theorem W5_v1 (c : Dev nD) : W5 m ρ c (Proc.devRef .tc main_v1) = val_main_v1 (F := Ideal) (m ((c : Thread nD τ).loc main_arg1)) :=
  (W5_of_ne m ρ c main_v1 (by decide)).trans (W4_v1 m ρ c)

theorem W5_v3 (c : Dev nD) : W5 m ρ c (Proc.devRef .tc main_v3) = val_main_v3 (F := Ideal) (m ((c : Thread nD τ).loc main_arg1)) :=
  (W5_of_ne m ρ c main_v3 (by decide)).trans (W4_v3 m ρ c)

theorem W5_v29 (c : Dev nD) : W5 m ρ c (Proc.devRef .tc main_v29) = Stage.coefCol (m ((c : Thread nD τ).loc main_arg1)) :=
  (W5_of_ne m ρ c main_v29 (by decide)).trans (W4_v29 m ρ c)

theorem W5_v31 (c : Dev nD) : W5 m ρ c (Proc.devRef .tc main_v31) = Stage.selfCol (m ((c : Thread nD τ).loc main_arg1)) :=
  (W5_of_ne m ρ c main_v31 (by decide)).trans (W4_v31 m ρ c)

theorem W5_arg5 (c : Dev nD) : W5 m ρ c (Proc.devRef .tc main_arg5) = (m ((c : Thread nD τ).loc main_arg5)) :=
  (W5_of_ne m ρ c main_arg5 (by decide)).trans (W4_arg5 m ρ c)

theorem W5_arg6 (c : Dev nD) : W5 m ρ c (Proc.devRef .tc main_arg6) = (m ((c : Thread nD τ).loc main_arg6)) :=
  (W5_of_ne m ρ c main_arg6 (by decide)).trans (W4_arg6 m ρ c)

theorem W5_arg7 (c : Dev nD) : W5 m ρ c (Proc.devRef .tc main_arg7) = (m ((c : Thread nD τ).loc main_arg7)) :=
  (W5_of_ne m ρ c main_arg7 (by decide)).trans (W4_arg7 m ρ c)

/-! ## After the third stretch: the second aggregate -/

set_option maxHeartbeats 4000000 in
theorem W6_v59 (c : Dev nD) : W6 m ρ c (Proc.devRef .tc main_v59) = Stage.agg2 (Stage.hp2 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps3 (W5 m ρ c) (Proc.devRef .tc main_v59) = _
  after_results_simp
  rw [W5_v3 m ρ c, W5_v47 m ρ c, W5_v1 m ρ c, W5_v29 m ρ c]
  rfl

set_option maxHeartbeats 4000000 in
theorem W6_v60 (c : Dev nD) : W6 m ρ c (Proc.devRef .tc main_v60) = shapeCast S1x2 (m ((c : Thread nD τ).loc main_arg5)) shapeCasts_S2_S1x2 := by
  show StableHlo.after hostOps3 (W5 m ρ c) (Proc.devRef .tc main_v60) = _
  after_results_simp
  rw [W5_arg5 m ρ c]
  try rfl

set_option maxHeartbeats 4000000 in
theorem W6_v61 (c : Dev nD) : W6 m ρ c (Proc.devRef .tc main_v61) = shapeCast S1x1 (m ((c : Thread nD τ).loc main_arg7)) shapeCasts_S1_S1x1 := by
  show StableHlo.after hostOps3 (W5 m ρ c) (Proc.devRef .tc main_v61) = _
  after_results_simp
  rw [W5_arg7 m ρ c]
  try rfl

set_option maxHeartbeats 4000000 in
theorem W6_v47 (c : Dev nD) : W6 m ρ c (Proc.devRef .tc main_v47) = Stage.hp2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v47) = _
  after_results_simp
  rw [W5_v47 m ρ c]
  try rfl

set_option maxHeartbeats 4000000 in
theorem W6_v31 (c : Dev nD) : W6 m ρ c (Proc.devRef .tc main_v31) = Stage.selfCol (m ((c : Thread nD τ).loc main_arg1)) := by
  show StableHlo.after hostOps3 (W5 m ρ c) (Proc.devRef .tc main_v31) = _
  after_results_simp
  rw [W5_v31 m ρ c]
  try rfl

set_option maxHeartbeats 4000000 in
theorem W6_arg6 (c : Dev nD) : W6 m ρ c (Proc.devRef .tc main_arg6) = (m ((c : Thread nD τ).loc main_arg6)) := by
  show StableHlo.after hostOps3 (W5 m ρ c) (Proc.devRef .tc main_arg6) = _
  after_results_simp
  rw [W5_arg6 m ρ c]
  try rfl

/-! ## After the last region: the result -/

theorem W7_v62 (c : Dev nD) : W7 m ρ c (Proc.devRef .tc main_v62) = Stage.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W7_arr m ρ c 6).trans ((region3 (V6 m ρ) c).trans (by
    show outArr (W6 m ρ c (Proc.devRef .tc main_v59)) (W6 m ρ c (Proc.devRef .tc main_v47)) (W6 m ρ c (Proc.devRef .tc main_v31)) (W6 m ρ c (Proc.devRef .tc main_v60)) (W6 m ρ c (Proc.devRef .tc main_arg6)) (W6 m ρ c (Proc.devRef .tc main_v61)) = _
    rw [W6_v59 m ρ c, W6_v47 m ρ c, W6_v31 m ρ c, W6_v60 m ρ c, W6_arg6 m ρ c, W6_v61 m ρ c]; rfl))

end Cert.KernelIdeal.FoldValue
end
-- ==== Proof.LibColumnRow.lean ====
/-
  A vector laid out as a one-column matrix, or as a one-row matrix, two ways: by a reshape and by a
  `broadcast_in_dim` that names the kept axis. Both read entry (a, 0) (resp. (0, a)) as entry a of the vector, so they
  are one array. Stated for any length and any element type.
-/
import Idealize.ShloMosaic.Lib.Pipeline.Value
import Idealize.ShloMosaic.Lib.ValueIdx

noncomputable section
namespace Cert.LibColumnRow
open Idealize.ShloMosaic Idealize.ShloMosaic.ValueIdx

/-- `[n] → [n, 1]`: the reshape is the broadcast along axis 0. -/
theorem reshape_col_eq_bcast {n : Nat} {α : Type} (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ v h = broadcastInDim ⟨2, ![n, 1]⟩ ![0] h' v := by
  funext j
  obtain ⟨a, b, rfl⟩ : ∃ (a : Fin n) (b : Fin 1), j = ix2 a b := ⟨j 0, j 1, eq_ix2 j⟩
  have ha : a.val < n := a.isLt
  have hb : b.val < 1 := b.isLt
  rw [shapeCast_apply v h (ix2 a b) (ix1 a) (by
        rw [Shape.rowMajor_val_one, Shape.rowMajor_val_two]; show a.val = a.val * 1 + b.val; omega),
    broadcastInDim_apply ![0] h' v (ix2 a b) (ix1 a) (fun c => match c with
      | ⟨0, _⟩ => by show a.val = if n = 1 then 0 else a.val; split <;> omega)]

/-- `[n] → [1, n]`: the reshape is the broadcast along axis 1. -/
theorem reshape_row_eq_bcast {n : Nat} {α : Type} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ ![1] h' v := by
  funext j
  obtain ⟨b, a, rfl⟩ : ∃ (b : Fin 1) (a : Fin n), j = ix2 b a := ⟨j 0, j 1, eq_ix2 j⟩
  have ha : a.val < n := a.isLt
  have hb : b.val < 1 := b.isLt
  rw [shapeCast_apply v h (ix2 b a) (ix1 a) (by
        rw [Shape.rowMajor_val_one, Shape.rowMajor_val_two]; show a.val = b.val * n + a.val; have : b.val = 0 := by omega
        rw [this]; omega),
    broadcastInDim_apply ![1] h' v (ix2 b a) (ix1 a) (fun c => match c with
      | ⟨0, _⟩ => by show a.val = if n = 1 then 0 else a.val; split <;> omega)]

end Cert.LibColumnRow
end
-- ==== Proof.Bridge.lean ====
/-
  The kernel's composed function of the arguments is the reference's, stage by stage, when every node index of the edge
  list is non-negative.
  The two programs differ in five ways, none of which changes a value on the extended reals: the projections are a sum
  over the contracted axis on both sides (the kernel block by block, the reference at once); a vector is laid out as a
  column or a row by a reshape on one side and by a broadcast naming the kept axis on the other; the reference wraps a
  negative destination index by the node count before it adds an edge's message into its row, where the kernel's
  aggregation takes the index as given — the same index when it is non-negative; the structure arrays (degrees,
  coefficients) are computed once by the kernel and once per layer by the reference, by the same operations; and the
  logistic function is one operation on one side and 1 / (1 + exp(−z)) spelt out on the other, which is its definition.
-/
import proofs.«160691_j11699490914960_1_alg».proof.Proof.KernelStages
import proofs.«160691_j11699490914960_1_alg».proof.Proof.LibColumnRow
import Idealize.ShloMosaic.PureOps.Ideal.Laws
import Idealize.ShloMosaic.Lib.Affine

set_option maxRecDepth 16384
noncomputable section
namespace Cert.Bridge
open Cert.ReferenceIdeal Cert.ReferenceIdeal.Gen Cert.ReferenceIdeal.Read Idealize.ShloMosaic
open Cert.KernelIdeal (Stage.srcCol Stage.dstCol Stage.coefCol Stage.selfCol Stage.agg1 Stage.agg2 Stage.hidden Stage.hp2 Stage.result)
open Cert.KernelIdeal.RegionValue (proj1Arr act1Arr proj2Arr embArr outArr)

/-- The word `1.0` is the real one. -/
theorem one_word : Ideal.ofBits .f32 0x3F800000#32 = 1 := by
  simp [Ideal.ofBits, Ideal.ieee, -EReal.coe_mul]; norm_num

section Structure
variable (e : (⟨S2x1600000, .i32⟩ : BufTy).Contents (Elt Ideal)) (hE : ∀ i : S2x1600000.Idx, (0 : Int) ≤ (e i).toInt)
include hE

/-- A destination index is an entry of the edge list, so it is non-negative. -/
theorem dst_nonneg (j : S1600000.Idx) : (0 : Int) ≤ (val_main_v3 (F := Ideal) e j).toInt := by
  rw [val_main_v3_apply, val_main_v2_apply]; exact hE _

/-- Wrapping a non-negative index by the node count leaves it (first layer's copy of the operation). -/
theorem wrap_dst : val_main_v45 (F := Ideal) e = val_main_v3 (F := Ideal) e := by
  funext j
  rw [val_main_v45_apply]
  have hc : val_main_v42 (F := Ideal) e j = 0#1 := by
    apply ValueIdx.eq_zero_of_ne_one
    intro h1
    rw [val_main_v42_apply] at h1
    have h2 := IntOp.cmpi_slt.1 h1
    rw [val_main_v41_apply, val_main_c_9_apply] at h2
    have h3 := dst_nonneg e hE j
    have h4 : (0#32 : BitVec 32).toInt = 0 := by decide
    omega
  rw [hc, ValueIdx.select_zero]

/-- The same for the second layer's copy. -/
theorem wrap_dst2 : val_main_v102 (F := Ideal) e = val_main_v3 (F := Ideal) e := by
  funext j
  rw [val_main_v102_apply]
  have hc : val_main_v99 (F := Ideal) e j = 0#1 := by
    apply ValueIdx.eq_zero_of_ne_one
    intro h1
    rw [val_main_v99_apply] at h1
    have h2 := IntOp.cmpi_slt.1 h1
    rw [val_main_v98_apply, val_main_c_22_apply] at h2
    have h3 : (0 : Int) ≤ (val_main_v60 (F := Ideal) e j).toInt := dst_nonneg e hE j
    have h4 : (0#32 : BitVec 32).toInt = 0 := by decide
    omega
  rw [hc, ValueIdx.select_zero]
  rfl

theorem dstCol_eq : Stage.dstCol e = val_main_v46 (F := Ideal) e := by
  unfold Stage.dstCol val_main_v46
  rw [wrap_dst e hE]

theorem dstCol_eq2 : Stage.dstCol e = val_main_v103 (F := Ideal) e := by
  unfold Stage.dstCol val_main_v103
  rw [wrap_dst2 e hE]

omit hE

theorem coefCol_eq : Stage.coefCol e = val_main_v37 (F := Ideal) e :=
  (Cert.LibColumnRow.reshape_col_eq_bcast (val_main_v29 (F := Ideal) e) _ bcast_S1600000_S1600000x1_0).trans rfl

theorem coefCol_eq2 : Stage.coefCol e = val_main_v94 (F := Ideal) e :=
  (Cert.LibColumnRow.reshape_col_eq_bcast (val_main_v29 (F := Ideal) e) _ bcast_S1600000_S1600000x1_0).trans rfl

theorem selfCol_eq : Stage.selfCol e = val_main_v49 (F := Ideal) e :=
  (Cert.LibColumnRow.reshape_col_eq_bcast (val_main_v48 (F := Ideal) e) _ bcast_S100000_S100000x1_0).trans rfl

theorem selfCol_eq2 : Stage.selfCol e = val_main_v106 (F := Ideal) e :=
  (Cert.LibColumnRow.reshape_col_eq_bcast (val_main_v48 (F := Ideal) e) _ bcast_S100000_S100000x1_0).trans rfl

end Structure

theorem row1_eq (b1 : (⟨S128, .f32⟩ : BufTy).Contents (Elt Ideal)) :
    shapeCast Cert.KernelIdeal.S1x128 b1 Cert.KernelIdeal.Gen.facts.shapeCasts_S128_S1x128 = val_main_v53 (F := Ideal) b1 :=
  (Cert.LibColumnRow.reshape_row_eq_bcast b1 _ bcast_S128_S1x128_1).trans rfl

theorem row2_eq (b2 : (⟨S2, .f32⟩ : BufTy).Contents (Elt Ideal)) :
    shapeCast Cert.KernelIdeal.S1x2 b2 Cert.KernelIdeal.Gen.facts.shapeCasts_S2_S1x2 = val_main_v110 (F := Ideal) b2 :=
  (Cert.LibColumnRow.reshape_row_eq_bcast b2 _ bcast_S2_S1x2_1).trans rfl

theorem rowc_eq (bc : (⟨S1, .f32⟩ : BufTy).Contents (Elt Ideal)) :
    shapeCast Cert.KernelIdeal.S1x1 bc Cert.KernelIdeal.Gen.facts.shapeCasts_S1_S1x1 = val_main_v115 (F := Ideal) bc :=
  (Cert.LibColumnRow.reshape_row_eq_bcast bc _ bcast_S1_S1x1_1).trans rfl

section Layers
variable (x0 : (⟨S100000x165, .f32⟩ : BufTy).Contents (Elt Ideal)) (e : (⟨S2x1600000, .i32⟩ : BufTy).Contents (Elt Ideal)) (w1 : (⟨S165x128, .f32⟩ : BufTy).Contents (Elt Ideal))
  (b1 : (⟨S128, .f32⟩ : BufTy).Contents (Elt Ideal)) (w2 : (⟨S128x2, .f32⟩ : BufTy).Contents (Elt Ideal)) (b2 : (⟨S2, .f32⟩ : BufTy).Contents (Elt Ideal)) (wc : (⟨S2x1, .f32⟩ : BufTy).Contents (Elt Ideal)) (bc : (⟨S1, .f32⟩ : BufTy).Contents (Elt Ideal))
  (hE : ∀ i : S2x1600000.Idx, (0 : Int) ≤ (e i).toInt)

/-- The first projection is the reference's product of x and W1. -/
theorem proj1_eq : proj1Arr x0 w1 = val_main_v4 (F := Ideal) x0 w1 := by
  funext i
  rw [val_main_v4_apply]
  unfold proj1Arr
  refine Finset.sum_congr rfl fun k _ => ?_
  have el : ValueIdx.ix2 (⟨(i 0).val, (i 0).isLt⟩ : Fin 100000) k = lidx_main_v4 i k := funext fun a => by match a with | ⟨0, _⟩ => rfl | ⟨1, _⟩ => rfl
  have er : ValueIdx.ix2 k (⟨(i 1).val, (i 1).isLt⟩ : Fin 128) = ridx_main_v4 i k := funext fun a => by match a with | ⟨0, _⟩ => rfl | ⟨1, _⟩ => rfl
  rw [el, er]

include hE

/-- The first aggregate is the reference's. -/
theorem agg1_eq : Stage.agg1 (val_main_v4 (F := Ideal) x0 w1) e = val_main_v47 (F := Ideal) x0 e w1 := by
  unfold Stage.agg1
  rw [dstCol_eq e hE, coefCol_eq e]
  rfl

/-- The hidden layer is the reference's. -/
theorem hidden_eq : Stage.hidden x0 e w1 b1 = val_main_v56 (F := Ideal) x0 e w1 b1 := by
  unfold Stage.hidden
  rw [proj1_eq, agg1_eq x0 e w1 hE, selfCol_eq, row1_eq]
  funext i
  unfold act1Arr
  rw [val_main_v56_apply, val_main_v55_apply, val_main_v52_apply, val_main_v51_apply, val_main_v54_apply, val_main_v50_apply]
  have i1 : ValueIdx.ix2 (⟨(i 0).val, (i 0).isLt⟩ : Fin 100000) (0 : Fin 1) = idx_main_v50 i := funext fun a => by match a with | ⟨0, _⟩ => rfl | ⟨1, _⟩ => rfl
  have i2 : ValueIdx.ix2 (0 : Fin 1) (⟨(i 1).val, (i 1).isLt⟩ : Fin 128) = idx_main_v54 i := funext fun a => by match a with | ⟨0, _⟩ => rfl | ⟨1, _⟩ => rfl
  rw [i1, i2]
  simp only [Ideal.hostUnary_tanh_def, Ideal.addf_def, Ideal.mulf_def]

/-- The second projection is the reference's product of the hidden layer and W2. -/
theorem hp2_eq : Stage.hp2 x0 e w1 b1 w2 = val_main_v61 (F := Ideal) x0 e w1 b1 w2 := by
  unfold Stage.hp2
  rw [hidden_eq x0 e w1 b1 hE]
  funext i
  rw [val_main_v61_apply]
  unfold proj2Arr
  refine Finset.sum_congr rfl fun k _ => ?_
  have el : ValueIdx.ix2 (⟨(i 0).val, (i 0).isLt⟩ : Fin 100000) k = lidx_main_v61 i k := funext fun a => by match a with | ⟨0, _⟩ => rfl | ⟨1, _⟩ => rfl
  have er : ValueIdx.ix2 k (⟨(i 1).val, (i 1).isLt⟩ : Fin 2) = ridx_main_v61 i k := funext fun a => by match a with | ⟨0, _⟩ => rfl | ⟨1, _⟩ => rfl
  rw [el, er]

/-- The second aggregate is the reference's. -/
theorem agg2_eq : Stage.agg2 (val_main_v61 (F := Ideal) x0 e w1 b1 w2) e = val_main_v104 (F := Ideal) x0 e w1 b1 w2 := by
  unfold Stage.agg2
  rw [dstCol_eq2 e hE, coefCol_eq2 e]
  rfl

/-- The kernel's result is the reference's. -/
theorem result_eq : Stage.result x0 e w1 b1 w2 b2 wc bc = val_main_v123 (F := Ideal) x0 e w1 b1 w2 b2 wc bc := by
  unfold Stage.result
  rw [hp2_eq x0 e w1 b1 w2 hE, agg2_eq x0 e w1 b1 w2 hE, selfCol_eq2, row2_eq, rowc_eq]
  funext i
  unfold outArr
  rw [val_main_v123_apply, val_main_v122_apply, val_main_v121_apply, val_main_v120_apply, val_main_v119_apply, val_main_v118_apply,
    val_main_v117_apply, val_main_v116_apply, val_main_v114_apply, val_main_cst_25_apply, val_main_cst_24_apply]
  have hs : (∑ k : Fin 2, embArr (val_main_v104 (F := Ideal) x0 e w1 b1 w2) (val_main_v61 (F := Ideal) x0 e w1 b1 w2)
        (val_main_v106 (F := Ideal) e) (val_main_v110 (F := Ideal) b2) (⟨(i 0).val, (i 0).isLt⟩ : Fin 100000) k * wc (ValueIdx.ix2 k (⟨(i 1).val, (i 1).isLt⟩ : Fin 1)))
      = ∑ k : Fin 2, (val_main_v113 (F := Ideal) x0 e w1 b1 w2 b2) (lidx_main_v114 i k) * wc (ridx_main_v114 i k) := by
    refine Finset.sum_congr rfl fun k _ => ?_
    unfold embArr
    rw [val_main_v113_apply, val_main_v112_apply, val_main_v109_apply, val_main_v108_apply, val_main_v111_apply, val_main_v107_apply]
    have j0 : ValueIdx.ix2 (⟨(i 0).val, (i 0).isLt⟩ : Fin 100000) k = lidx_main_v114 i k := funext fun a => by match a with | ⟨0, _⟩ => rfl | ⟨1, _⟩ => rfl
    have j1 : ValueIdx.ix2 (⟨(i 0).val, (i 0).isLt⟩ : Fin 100000) (0 : Fin 1) = idx_main_v107 (lidx_main_v114 i k) := funext fun a => by match a with | ⟨0, _⟩ => rfl | ⟨1, _⟩ => rfl
    have j2 : ValueIdx.ix2 (0 : Fin 1) k = idx_main_v111 (lidx_main_v114 i k) := funext fun a => by match a with | ⟨0, _⟩ => rfl | ⟨1, _⟩ => rfl
    have j3 : ValueIdx.ix2 k (⟨(i 1).val, (i 1).isLt⟩ : Fin 1) = ridx_main_v114 i k := funext fun a => by match a with | ⟨0, _⟩ => rfl | ⟨1, _⟩ => rfl
    rw [j0, j1, j2, j3]
    simp only [Ideal.hostUnary_tanh_def, Ideal.addf_def, Ideal.mulf_def]
  rw [hs]
  have j4 : ValueIdx.ix2 (0 : Fin 1) (0 : Fin 1) = idx_main_v116 i := funext fun a => by match a with | ⟨0, _⟩ => rfl | ⟨1, _⟩ => rfl
  rw [j4]
  unfold Ideal.logistic
  simp only [Ideal.hostDivf_def, Ideal.addf_def, Ideal.hostUnary_exp_def, Ideal.hostNegf_def, Ideal.negf_def, Ideal.ofBits_def, one_word]

end Layers

end Cert.Bridge
end
-- ==== Proof.PreIndices.lean ====
/-
  The precondition read at an entry of the edge list: every node index it holds is non-negative as a signed word.
  The predicate ends in a conjunction whose last conjunct is "all entries of edge_index are ≥ 0": a reduction by `and`
  over the comparison array, which is 1 only when every compared entry is.
-/
import proofs.«160691_j11699490914960_1_alg».proof.Pre_finite_inputs
import Idealize.ShloMosaic.Lib.ReduceAll
import Idealize.ShloMosaic.Lib.ValueIdx

noncomputable section
namespace Cert.PreIndices
open Cert.Pre_finite_inputs Idealize.ShloMosaic

instance : Subsingleton S_.Idx := ⟨fun a b => funext fun d => d.elim0⟩

theorem edge_nonneg [Cert.Pre_finite_inputs.Facts] {F : FTy → Type} [FloatOps F]
    (x0 : FVec F S100000x165 .f32) (e : IVec S2x1600000 32) (x2 : FVec F S165x128 .f32) (x3 : FVec F S128 .f32)
    (x4 : FVec F S128x2 .f32) (x5 : FVec F S2 .f32) (x6 : FVec F S2x1 .f32) (x7 : FVec F S1 .f32)
    (hpre : Cert.Pre_finite_inputs.fn (F := F) x0 e x2 x3 x4 x5 x6 x7 = fun _ => 1#1) (i : S2x1600000.Idx) :
    (0 : Int) ≤ (e i).toInt := by
  have h0 := congrFun hpre ValueIdx.ix0
  dsimp only [Cert.Pre_finite_inputs.fn, Cert.Pre_finite_inputs.fn_part1, Cert.Pre_finite_inputs.fn_part2] at h0
  obtain ⟨-, h1⟩ := IntOp.andi_eq_one.1 h0
  have h2 := Host.reduce_andi_all _ _ _ _ _ h1 i
  have h3 := IntOp.cmpi_sge.1 h2
  exact h3

end Cert.PreIndices
end
-- ==== Proof.lean ====
/-
  A two-layer graph convolution with a logistic classifier over 100000 nodes and 1600000 edges, as a tiled kernel program
  against its plain reference, on the extended reals.
  Both programs compute, from the edge list, each node's degree (one plus its number of incoming edges), the edge
  coefficients rsqrt(deg[src]) · rsqrt(deg[dst]) and the self-loop coefficients rsqrt(deg)²; each layer projects the node
  features by a weight matrix, adds into every node the coefficient-scaled projections of its in-neighbours, adds the node's
  own projection times its self-loop coefficient and a bias, and applies tanh; the result is the logistic function of the
  second layer's two columns against the classifier column plus its bias.
  The kernel program runs the projections and the activations as four regions of twenty row blocks each and the gathers and
  scatter-adds between them on the host; the reference does everything on the host. The two results are equal entry by
  entry whenever every node index in the edge list is non-negative: a negative destination index is wrapped by the node
  count in the reference's aggregation and taken as given (and so dropped) in the kernel's. Finiteness of the float
  inputs is not used: every entry of every stage is the same expression of extended reals on both sides (the same sum over
  the contracted axis, the same products and sums in the same order), so no law of real arithmetic is called on.
-/
import proofs.«160691_j11699490914960_1_alg».proof.Defs
import proofs.«160691_j11699490914960_1_alg».proof.Proof.Gen.Kernel
import proofs.«160691_j11699490914960_1_alg».proof.Proof.Gen.Kernel.Skeleton
import proofs.«160691_j11699490914960_1_alg».proof.Proof.Gen.Kernel.Launch
import proofs.«160691_j11699490914960_1_alg».proof.Proof.Gen.Kernel.Points
import proofs.«160691_j11699490914960_1_alg».proof.Proof.Gen.Kernel.Frame
import proofs.«160691_j11699490914960_1_alg».proof.Proof.Gen.KernelIdeal
import proofs.«160691_j11699490914960_1_alg».proof.Proof.Gen.KernelIdeal.Skeleton
import proofs.«160691_j11699490914960_1_alg».proof.Proof.Gen.KernelIdeal.Launch
import proofs.«160691_j11699490914960_1_alg».proof.Proof.Gen.KernelIdeal.Points
import proofs.«160691_j11699490914960_1_alg».proof.Proof.Gen.KernelIdeal.Frame
import proofs.«160691_j11699490914960_1_alg».proof.Proof.Gen.ReferenceIdeal
import proofs.«160691_j11699490914960_1_alg».proof.Proof.Gen.ReferenceIdeal.Run
import proofs.«160691_j11699490914960_1_alg».proof.Proof.Gen.ReferenceIdeal.Read
import proofs.«160691_j11699490914960_1_alg».proof.Proof.Gen.Pre_finite_inputs
import proofs.«160691_j11699490914960_1_alg».proof.Proof.KernelRun
import proofs.«160691_j11699490914960_1_alg».proof.Proof.KernelFold
import proofs.«160691_j11699490914960_1_alg».proof.Proof.Bridge
import proofs.«160691_j11699490914960_1_alg».proof.Proof.PreIndices
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at one function of the arguments: the kernel's composed stages, which the reference's stages equal
    once the edge list's indices are known non-negative. -/
theorem algebraic : Cert.algebraic_KernelIdeal_ReferenceIdeal := by
  intro m ρ m' ρ' hpre hagree
  refine ⟨fun c => Cert.KernelIdeal.Stage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.FoldValue.W7_v62 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v123_eq]
    obtain ⟨a0, a1, a2, a3, a4, a5, a6, a7⟩ := hagree c
    rw [a0, a1, a2, a3, a4, a5, a6, a7]
    exact (Cert.Bridge.result_eq _ _ _ _ _ _ _ _
      (fun i => Cert.PreIndices.edge_nonneg _ _ _ _ _ _ _ _ (hpre c) i)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
